-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : FVec F S64x64 .f32) (main_arg2 : FVec F S64 .f32) (main_arg3 : IVec S1200000 32) (main_arg4 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S5000x64 : Shape := ⟨2, ![5000, 64]⟩
abbrev S1x64 : Shape := ⟨2, ![1, 64]⟩

abbrev nBuf : Space → Nat
  | .hbm => 56
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1200000, .i32⟩
  | .hbm, ⟨4, _⟩ => ⟨S1200000, .i32⟩
  | .hbm, ⟨5, _⟩ => ⟨S_, .f32⟩
  | .hbm, ⟨6, _⟩ => ⟨S1200000, .f32⟩
  | .hbm, ⟨7, _⟩ => ⟨S_, .f32⟩
  | .hbm, ⟨8, _⟩ => ⟨S100000, .f32⟩
  | .hbm, ⟨9, _⟩ => ⟨S1200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S100000, .f32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000, .f32⟩
  | .hbm, ⟨33, _⟩ => ⟨S1200000, .f32⟩
  | .hbm, ⟨34, _⟩ => ⟨S_, .i32⟩
  | .hbm, ⟨35, _⟩ => ⟨S1200000, .i32⟩
  | .hbm, ⟨36, _⟩ => ⟨S1200000, .i1⟩
  | .hbm, ⟨37, _⟩ => ⟨S_, .i32⟩
  | .hbm, ⟨38, _⟩ => ⟨S1200000, .i32⟩
  | .hbm, ⟨39, _⟩ => ⟨S1200000, .i32⟩
  | .hbm, ⟨40, _⟩ => ⟨S1200000, .i32⟩
  | .hbm, ⟨41, _⟩ => ⟨S1200000x1, .i32⟩
  | .hbm, ⟨42, _⟩ => ⟨S1200000x64, .f32⟩
  | .hbm, ⟨43, _⟩ => ⟨S1200000x1, .f32⟩
  | .hbm, ⟨44, _⟩ => ⟨S1200000x64, .f32⟩
  | .hbm, ⟨45, _⟩ => ⟨S1200000x64, .f32⟩
  | .hbm, ⟨46, _⟩ => ⟨S_, .f32⟩
  | .hbm, ⟨47, _⟩ => ⟨S100000x64, .f32⟩
  | .hbm, ⟨48, _⟩ => ⟨S1200000x1, .i32⟩
  | .hbm, ⟨49, _⟩ => ⟨S100000x64, .f32⟩
  | .hbm, ⟨50, _⟩ => ⟨S100000, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v39) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩

abbrev nBuf : Space → Nat
  | .hbm => 62
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1200000, .i32⟩
  | .hbm, ⟨4, _⟩ => ⟨S1200000, .i32⟩
  | .hbm, ⟨5, _⟩ => ⟨S_, .f32⟩
  | .hbm, ⟨6, _⟩ => ⟨S1200000, .f32⟩
  | .hbm, ⟨7, _⟩ => ⟨S_, .f32⟩
  | .hbm, ⟨8, _⟩ => ⟨S100000, .f32⟩
  | .hbm, ⟨9, _⟩ => ⟨S1200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S100000, .f32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000, .f32⟩
  | .hbm, ⟨33, _⟩ => ⟨S1200000, .f32⟩
  | .hbm, ⟨34, _⟩ => ⟨S_, .i32⟩
  | .hbm, ⟨35, _⟩ => ⟨S1200000, .i32⟩
  | .hbm, ⟨36, _⟩ => ⟨S1200000, .i1⟩
  | .hbm, ⟨37, _⟩ => ⟨S_, .i32⟩
  | .hbm, ⟨38, _⟩ => ⟨S1200000, .i32⟩
  | .hbm, ⟨39, _⟩ => ⟨S1200000, .i32⟩
  | .hbm, ⟨40, _⟩ => ⟨S1200000, .i32⟩
  | .hbm, ⟨41, _⟩ => ⟨S1200000x1, .i32⟩
  | .hbm, ⟨42, _⟩ => ⟨S1200000x64, .f32⟩
  | .hbm, ⟨43, _⟩ => ⟨S1200000x1, .f32⟩
  | .hbm, ⟨44, _⟩ => ⟨S1200000x64, .f32⟩
  | .hbm, ⟨45, _⟩ => ⟨S1200000x64, .f32⟩
  | .hbm, ⟨46, _⟩ => ⟨S_, .f32⟩
  | .hbm, ⟨47, _⟩ => ⟨S100000x64, .f32⟩
  | .hbm, ⟨48, _⟩ => ⟨S1200000x1, .i32⟩
  | .hbm, ⟨49, _⟩ => ⟨S100000x64, .f32⟩
  | .hbm, ⟨50, _⟩ => ⟨S100000, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.HostChain.lean ====
/-
  The aggregated features are one and the same array in both programs.

  Before the dense layer, both programs compute the normalised neighbourhood aggregate of the features from the same
  three inputs — the features, the edge sources and the edge targets — by the same host operations in the same order,
  with the same literals: the in-degree plus one, its inverse square root d, the edge weight d(src) · d(dst), the sum
  over each node's incoming edges of the weighted source features, and the node's own features times d². This chain
  is never opened here. The array the kernel's launch finds in the aggregate's buffer is that chain of operations
  applied to the three inputs as launched, and the reference names the very same chain as a stage of its run: the two
  are the same term.
-/
import proofs.«123337_j79388175499516_1_alg».proof.Proof.Gen.KernelIdeal.Frame
import proofs.«123337_j79388175499516_1_alg».proof.Proof.Gen.ReferenceIdeal.Read
import Idealize.ShloMosaic.Lib.StableHlo.Run

noncomputable section

namespace Cert.KernelIdeal.HostChain

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- What the launch finds in the aggregate's buffer is the reference's aggregate stage of the launched inputs: the
    host operations before the launch, composed, are that stage's definition, operation for operation. -/
theorem V_agg (c : Dev nD) :
    (V m c main_v39 : S100000x64.Idx → EReal)
      = Cert.ReferenceIdeal.Read.val_main_v39 (F := Ideal) (m ((c : Thread nD τ).loc main_arg0))
          (m ((c : Thread nD τ).loc main_arg3)) (m ((c : Thread nD τ).loc main_arg4)) := by
  dsimp only [V, hostOps0]
  after_results_simp
  rfl

end Cert.KernelIdeal.HostChain

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.Spec.lean ====
/-
  One dense layer of a graph convolution, as a function of its three operands, over the extended reals.

  For an aggregated feature matrix A (M rows, 64 columns), a weight matrix W (64 by 64) and a bias row b, the layer's
  entry (r, c) is max (Σ_{k < 64} A (r, k) · W (k, c) + b c, 0). The rows are independent of one another: the value at
  row r reads row r of A and nothing else of A. So a tile of rows of the result is the same layer applied to that tile
  of rows of A, with W and b whole — the law that lets a result computed tile by tile be compared with one computed at once.
  Nothing here needs the entries to be finite: no sum is re-ordered or re-grouped and no factor is moved across a sum.
-/
import Idealize.ShloMosaic.PureOps.Ideal
import Idealize.ShloMosaic.Lib.ValueIdx

noncomputable section

open scoped BigOperators

namespace Cert.Dense

open Idealize.ShloMosaic Idealize.ShloMosaic.ValueIdx

/-- The layer on M rows: entry (r, c) is max (Σ_k A (r, k) · W (k, c) + b c, 0). The zero is written as the float
    word of +0.0, as both programs write it; it is never evaluated. -/
def layer {M : Nat} (A : (⟨2, ![M, 64]⟩ : Shape).Idx → EReal) (W : (⟨2, ![64, 64]⟩ : Shape).Idx → EReal)
    (b : (⟨1, ![64]⟩ : Shape).Idx → EReal) : (⟨2, ![M, 64]⟩ : Shape).Idx → EReal :=
  fun i => max ((∑ k : Fin 64, A (ix2 (i 0) k) * W (ix2 k (i 1))) + b (ix1 (i 1))) (Ideal.ofBits .f32 0x00000000#32)

/-- The layer at an entry given by its coordinates. -/
theorem layer_apply {M : Nat} (A : (⟨2, ![M, 64]⟩ : Shape).Idx → EReal) (W : (⟨2, ![64, 64]⟩ : Shape).Idx → EReal)
    (b : (⟨1, ![64]⟩ : Shape).Idx → EReal) (r : Fin M) (c : Fin 64) :
    layer A W b (ix2 r c)
      = max ((∑ k : Fin 64, A (ix2 r k) * W (ix2 k c)) + b (ix1 c)) (Ideal.ofBits .f32 0x00000000#32) := rfl

/-- THE TILE LAW. If row p of a tile X is row r of the whole matrix A (entry by entry along the row), then the layer of
    the tile at (p, c) is the layer of the whole matrix at (r, c). -/
theorem layer_tile {M T : Nat} (A : (⟨2, ![M, 64]⟩ : Shape).Idx → EReal) (X : (⟨2, ![T, 64]⟩ : Shape).Idx → EReal)
    (W : (⟨2, ![64, 64]⟩ : Shape).Idx → EReal) (b : (⟨1, ![64]⟩ : Shape).Idx → EReal) (p : Fin T) (r : Fin M) (c : Fin 64)
    (hrow : ∀ k : Fin 64, X (ix2 p k) = A (ix2 r k)) :
    layer X W b (ix2 p c) = layer A W b (ix2 r c) := by
  rw [layer_apply, layer_apply]
  refine congrArg (fun s => max (s + b (ix1 c)) (Ideal.ofBits .f32 0x00000000#32)) ?_
  exact Finset.sum_congr rfl fun k _ => by rw [hrow k]

end Cert.Dense

end
-- ==== Proof.KernelPayload.lean ====
/-
  The kernel body's arithmetic at one entry of its tile, over the extended reals.

  The body takes a tile of 5000 rows of the aggregated features, the whole weight matrix and the whole bias row. It
  narrows the tile and the weights to bf16 (a change of format: the identity on extended reals), multiplies them on the
  matrix unit into a zero accumulator (entry (p, q): the sum over k of tile (p, k) · weight (k, q)), adds the bias row
  broadcast over the rows, and takes the maximum with zero. So its result is the dense layer of the tile.
-/
import proofs.«123337_j79388175499516_1_alg».proof.Proof.Gen.KernelIdeal.Skeleton
import proofs.«123337_j79388175499516_1_alg».proof.Proof.LibMatmulPlain
import proofs.«123337_j79388175499516_1_alg».proof.Proof.Spec
import Idealize.ShloMosaic.Lib.ValueLayout

noncomputable section

open scoped BigOperators

namespace Cert.KernelIdeal.Body

open Cert.KernelIdeal Cert.KernelIdeal.Gen Idealize.ShloMosaic Idealize.ShloMosaic.ValueIdx

/-- The bias row, given a leading unit axis and repeated over the 5000 rows, read at (p, q), is the bias at q. -/
theorem bias_rows (v : FVec Ideal S64 .f32) (p : Fin 5000) (q : Fin 64) :
    broadcastTo S5000x64 (shapeCast S1x64 v shapeCasts_S64_S1x64) broadcasts_S1x64_S5000x64 (ix2 p q) = v (ix1 q) :=
  (broadcastTo_1b_ab_apply _ broadcasts_S1x64_S5000x64 p q).trans
    (shapeCast_a_1a_apply v shapeCasts_S64_S1x64 (0 : Fin 1) q)

/-- The matrix unit's product of the narrowed tile and the narrowed weights into the zero accumulator, at (p, q), is
    the row-by-column sum of the tile and the weights as loaded. -/
theorem product (x0 : FVec Ideal S5000x64 .f32) (x1 : FVec Ideal S64x64 .f32) (p : Fin 5000) (q : Fin 64) :
    matmul dot_S5000x64_S64x64_S5000x64_1_0_0_1_n_n none
        (truncf .bf16 (shapeCast S5000x64 x0 shapeCasts_S5000x64_S5000x64) bitsLt_bf16_f32)
        (truncf .bf16 x1 bitsLt_bf16_f32) (constant (F := Ideal) S5000x64 .f32 0x00000000#32) (ix2 p q)
      = ∑ k : Fin 64, x0 (ix2 p k) * x1 (ix2 k q) := by
  rw [shapeCast_self]
  exact MatmulPlain.matmul_zero_apply (M := 5000) (K := 64) (N := 64) none
    (truncf .bf16 x0 bitsLt_bf16_f32) (truncf .bf16 x1 bitsLt_bf16_f32) (ix2 p q)

/-- THE BODY IS THE LAYER OF ITS TILE: what the body stores, at the entry (p, q) of the tile. -/
theorem pay_apply (x0 : FVec Ideal S5000x64 .f32) (x1 : FVec Ideal S64x64 .f32) (x2 : FVec Ideal S64 .f32)
    (p : Fin 5000) (q : Fin 64) :
    k0_pay1 (F := Ideal) x0 x1 x2 (ix2 p q) = Cert.Dense.layer x0 x1 x2 (ix2 p q) := by
  rw [Cert.Dense.layer_apply]
  unfold k0_pay1
  show max (matmul dot_S5000x64_S64x64_S5000x64_1_0_0_1_n_n none
        (truncf .bf16 (shapeCast S5000x64 x0 shapeCasts_S5000x64_S5000x64) bitsLt_bf16_f32)
        (truncf .bf16 x1 bitsLt_bf16_f32) (constant (F := Ideal) S5000x64 .f32 0x00000000#32) (ix2 p q)
      + broadcastTo S5000x64 (shapeCast S1x64 x2 shapeCasts_S64_S1x64) broadcasts_S1x64_S5000x64 (ix2 p q))
      (Ideal.ofBits .f32 0x00000000#32) = _
  rw [product, bias_rows]

end Cert.KernelIdeal.Body

end
-- ==== Proof.KernelBlocks.lean ====
/-
  From the kernel's tiles to its whole result array.

  The launch runs the body at 20 grid points. At point t the body's three input blocks are rows 5000 t … 5000 t + 4999
  of the aggregated features (all 64 columns), the whole weight matrix and the whole bias row, and the block written
  back is rows 5000 t … 5000 t + 4999 of the result. The body computes the dense layer of its tile, and a tile of the
  layer of the whole aggregate is the layer of that tile of rows (the tile law), so what point t writes back is block
  t of ONE array: the dense layer of the whole aggregate. The 20 blocks cover all 100000 rows — row r lies in block
  r / 5000 — so after the run the result array is that layer.

  The facts about blocks are stated for ARBITRARY arrays first (the aggregate is the value of a long chain of host
  operations, which these facts never need to look into) and instantiated at the arrays the launch finds afterwards.
-/
import proofs.«123337_j79388175499516_1_alg».proof.Proof.Gen.KernelIdeal.Value
import proofs.«123337_j79388175499516_1_alg».proof.Proof.KernelPayload

noncomputable section

open scoped BigOperators

namespace Cert.KernelIdeal.Blocks

open Cert.KernelIdeal Cert.KernelIdeal.Gen Idealize.ShloMosaic Idealize.ShloMosaic.TcCoe Idealize.SL.Sem
  Idealize.ShloMosaic.ValueIdx
open Idealize.ShloMosaic.Pipeline (Dat)

/-- The body's accesses start at the origin of their buffers. -/
theorem origin2 : (![0, 0] : Fin 2 → Nat) = fun _ => 0 := funext fun a => by fin_cases a <;> rfl
theorem origin1 : (![0] : Fin 1 → Nat) = fun _ => 0 := funext fun a => by fin_cases a <;> rfl

/-- The block indices at grid point t, decided over the 20 points: the aggregate's block and the result's block are
    both block t of the rows and block 0 of the columns; the weights' and the bias's block is always block 0. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-! ## Blocks of arbitrary arrays -/

/-- Row p of block t of a 100000-row array, read through the aggregate's window, is row 5000 t + p of the array. -/
theorem agg_read (X : S100000x64.Idx → EReal) (t : Fin cfg0.N) (p : Fin 5000) (k : Fin 64) (r : Fin 100000)
    (hr : r.val = t.val * 5000 + p.val) :
    ((cfg0.win 0).blk t).view.read (Elt Ideal) X (ix2 p k) = X (ix2 r k) := by
  obtain ⟨e0, e1, -⟩ := block_indices t
  show X (((cfg0.win 0).blk t).view.emb (ix2 p k)) = X (ix2 r k)
  have h : ((cfg0.win 0).blk t).view.emb (ix2 p k) = ix2 r k := by
    funext a; apply Fin.ext
    match a with
    | ⟨0, _⟩ => show win0_0.index t (0 : Fin 2) * 5000 + 1 * p.val = r.val; omega
    | ⟨1, _⟩ => show win0_0.index t (1 : Fin 2) * 64 + 1 * k.val = k.val; omega
  rw [h]

/-- The weights' window reads the whole 64 by 64 array at every point. -/
theorem weight_read (X : S64x64.Idx → EReal) (t : Fin cfg0.N) :
    ((cfg0.win 1).blk t).view.read (Elt Ideal) X = X := by
  obtain ⟨-, -, e2, e3, -⟩ := block_indices t
  funext y
  show X (((cfg0.win 1).blk t).view.emb y) = X y
  have h : ((cfg0.win 1).blk t).view.emb y = y := by
    funext a; apply Fin.ext
    match a with
    | ⟨0, _⟩ => show win0_1.index t (0 : Fin 2) * 64 + 1 * (y 0).val = (y 0).val; omega
    | ⟨1, _⟩ => show win0_1.index t (1 : Fin 2) * 64 + 1 * (y 1).val = (y 1).val; omega
  rw [h]

/-- The bias's window reads the whole row at every point. -/
theorem bias_read (X : S64.Idx → EReal) (t : Fin cfg0.N) :
    ((cfg0.win 2).blk t).view.read (Elt Ideal) X = X := by
  obtain ⟨-, -, -, -, e4, -⟩ := block_indices t
  funext y
  show X (((cfg0.win 2).blk t).view.emb y) = X y
  have h : ((cfg0.win 2).blk t).view.emb y = y := by
    funext a; apply Fin.ext
    match a with
    | ⟨0, _⟩ => show win0_2.index t (0 : Fin 1) * 64 + 1 * (y 0).val = (y 0).val; omega
  rw [h]

/-- THE TILE WRITTEN BACK IS A BLOCK OF THE LAYER, for arbitrary arrays: if the tile X0 holds rows 5000 t … of A, then
    the body's result on (X0, W, b), written back through the result's window at point t, is block t of the dense
    layer of (A, W, b). -/
theorem tile_is_block (A : S100000x64.Idx → EReal) (W : S64x64.Idx → EReal) (b : S64.Idx → EReal)
    (X0 : S5000x64.Idx → EReal) (t : Fin cfg0.N)
    (hX : ∀ (p : Fin 5000) (k : Fin 64) (r : Fin 100000), r.val = t.val * 5000 + p.val → X0 (ix2 p k) = A (ix2 r k)) :
    (cfg0.win 3).cut (grid0.coords t) (k0_pay1 (F := Ideal) X0 W b)
      = ((cfg0.win 3).blk t).view.read (Elt Ideal) (Cert.Dense.layer A W b) := by
  obtain ⟨-, -, -, -, -, e5, e6⟩ := block_indices t
  funext j
  obtain ⟨p, q, rfl⟩ : ∃ (p : Fin 5000) (q : Fin 64), j = ix2 p q := ⟨j 0, j 1, eq_ix2 j⟩
  have ht : t.val < 20 := lt_of_lt_of_eq t.isLt N_0
  have hemb : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  show k0_pay1 (F := Ideal) X0 W b (ix2 p q) = Cert.Dense.layer A W b (((cfg0.win 3).blk t).view.emb (ix2 p q))
  rw [hemb]
  refine (Body.pay_apply X0 W b p q).trans ?_
  exact Cert.Dense.layer_tile (M := 100000) (T := 5000) A X0 W b p ⟨t.val * 5000 + p.val, by omega⟩ q
    (fun k => hX p k _ rfl)

/-! ## The arrays the launch finds -/

variable (m : (ℓ : Loc nD τ sig) → Buf (Elt Ideal) ℓ) (ρ : Dev nD → PrngReg)

/-- The dense layer of the whole aggregate as the launch finds it, with the weights and the bias as it finds them. -/
abbrev whole (c : Dev nD) : S100000x64.Idx → EReal :=
  Cert.Dense.layer (V m c main_v39) (V m c main_arg1) (V m c main_arg2)

/-- WHAT POINT t WRITES BACK is block t of the dense layer of the whole aggregate. -/
theorem flushed_eq (c : Dev nD) (t : Fin cfg0.N) :
    (dats m 0 c).flushed 3 t = ((cfg0.win 3).blk t).view.read (Elt Ideal) (whole m c) := by
  rw [Value.flushed3]
  unfold out0_3
  rw [View.canon_unit_zero origin2]
  simp only [View.ld_unit_zero (S := S5000x64) origin2, View.ld_unit_zero (S := S64x64) origin2,
    View.ld_unit_zero (S := S64) origin1]
  unfold iblk
  rw [weight_read (V m c main_arg1) t, bias_read (V m c main_arg2) t]
  exact tile_is_block (V m c main_v39) (V m c main_arg1) (V m c main_arg2) _ t
    (fun p k r hr => agg_read (V m c main_v39) t p k r hr)

/-- An index of the result array is in point t's block iff each coordinate is in the block's range on its axis. -/
theorem mem_block (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v40).slice (win0_3.rect t)).set ↔ _
  rw [View.set_slice_whole, Rect.mem_set_unit]
  exact Iff.rfl

/-- THE 20 BLOCKS COVER THE ARRAY: row r is in the block of point r / 5000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_3 _, ?_⟩
  obtain ⟨-, -, -, -, -, e5, e6⟩ := block_indices ⟨(i 0).val / 5000, by rw [hN]; omega⟩
  rw [mem_block]
  intro a
  match a with
  | ⟨0, _⟩ =>
    show win0_3.index _ (0 : Fin 2) * 5000 ≤ (i 0).val ∧ (i 0).val < win0_3.index _ (0 : Fin 2) * 5000 + 5000
    rw [e5]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [e6]; omega

/-- THE RESULT ARRAY after the run is the dense layer of the whole aggregate. -/
theorem final (c : Dev nD) : (dats m 0 c).arrAt 3 cfg0.N = whole m c :=
  (dats m 0 c).arrAt_eq_of_cover 3 (whole m c) (fun t _ => flushed_eq m c t) cover

/-- The kernel's run, re-posted: the result array at the dense layer of the aggregate, the weights and the bias as
    the launch finds them; the arguments unchanged. -/
theorem run : θ_run defs (onTc (τ := τ) (main (F := Ideal))) ⟨m, fun _ => 0, ρ⟩ fun r => ∀ c : Dev nD,
      r.2.mem ((c : Thread nD τ).loc main_v40) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.RefValue.lean ====
/-
  The reference's result is the dense layer of its own aggregate.

  After the aggregate A, the reference multiplies A by the weights in one whole matrix product (entry (r, c): the sum
  over k of A (r, k) · W (k, c)), adds the bias row broadcast over the rows, and takes the maximum with a zero array.
  Read entry by entry that is max (Σ_k A (r, k) · W (k, c) + b c, 0): the layer.
-/
import proofs.«123337_j79388175499516_1_alg».proof.Proof.Gen.ReferenceIdeal.Read
import proofs.«123337_j79388175499516_1_alg».proof.Proof.Spec

noncomputable section

open scoped BigOperators

namespace Cert.ReferenceIdeal.RefValue

open Cert.ReferenceIdeal Cert.ReferenceIdeal.Read Idealize.ShloMosaic Idealize.ShloMosaic.ValueIdx

/-- The left operand of the whole product is read at (r, k), -/
theorem lidx_eq (i : S100000x64.Idx) (k : Fin 64) : lidx_main_v40 i k = ix2 (i 0) k :=
  funext fun a => Fin.ext (by match a with | ⟨0, _⟩ => rfl | ⟨1, _⟩ => rfl)
/-- the right operand at (k, c), -/
theorem ridx_eq (i : S100000x64.Idx) (k : Fin 64) : ridx_main_v40 i k = ix2 k (i 1) :=
  funext fun a => Fin.ext (by match a with | ⟨0, _⟩ => rfl | ⟨1, _⟩ => rfl)
/-- and the bias, through its two broadcasts, at c. -/
theorem bidx_eq (i : S100000x64.Idx) : idx_main_v41 (idx_main_v42 i) = ix1 (i 1) :=
  funext fun a => Fin.ext (by match a with | ⟨0, _⟩ => rfl)

/-- THE REFERENCE IS THE LAYER of its aggregate stage, the weights and the bias. -/
theorem result_eq (x0 : S100000x64.Idx → EReal) (x1 : S64x64.Idx → EReal) (x2 : S64.Idx → EReal)
    (x3 x4 : S1200000.Idx → BitVec 32) :
    val_main_v44 (F := Ideal) x0 x1 x2 x3 x4 = Cert.Dense.layer (val_main_v39 (F := Ideal) x0 x3 x4) x1 x2 := by
  funext i
  rw [val_main_v44_apply, val_main_v43_apply, val_main_v40_apply, val_main_v42_apply, val_main_v41_apply,
    val_main_call0_v0_apply, val_main_call0_cst_apply]
  simp only [lidx_eq, ridx_eq, bidx_eq]
  rfl

end Cert.ReferenceIdeal.RefValue

end
-- ==== Proof.lean ====
/-
  The kernel and its reference compute the same graph-convolution layer, over the extended reals.

  Both programs first form, by the same host operations on the same inputs, the normalised neighbourhood aggregate A of
  the node features (HostChain: one term, never opened). The reference then computes max (A · W + b, 0) with one whole
  matrix product (RefValue). The kernel computes it 5000 rows at a time: at each of 20 grid points its body narrows a
  tile of A and the weights W to bf16 — the identity on extended reals —, multiplies them into a zero accumulator, adds
  the bias row and takes the maximum with zero (KernelPayload), and writes the tile of the result back (KernelBlocks).
  Each entry of the layer reads one row of A, so the layer of a tile of rows is that tile of the layer of all rows
  (Spec: the tile law), and the 20 tiles cover the array. No sum is re-ordered and no factor moved across a sum, so the
  finiteness of the inputs is not used. The idealization rewrote no operation, so it preserves the kernel trivially;
  the three programs' runs terminate without fault and leave their arguments unchanged.
-/
import proofs.«123337_j79388175499516_1_alg».proof.Defs
import proofs.«123337_j79388175499516_1_alg».proof.Proof.Gen.Kernel
import proofs.«123337_j79388175499516_1_alg».proof.Proof.Gen.Kernel.Skeleton
import proofs.«123337_j79388175499516_1_alg».proof.Proof.Gen.Kernel.Launch
import proofs.«123337_j79388175499516_1_alg».proof.Proof.Gen.Kernel.Points
import proofs.«123337_j79388175499516_1_alg».proof.Proof.Gen.Kernel.Frame
import proofs.«123337_j79388175499516_1_alg».proof.Proof.Gen.KernelIdeal
import proofs.«123337_j79388175499516_1_alg».proof.Proof.Gen.KernelIdeal.Skeleton
import proofs.«123337_j79388175499516_1_alg».proof.Proof.Gen.KernelIdeal.Launch
import proofs.«123337_j79388175499516_1_alg».proof.Proof.Gen.KernelIdeal.Points
import proofs.«123337_j79388175499516_1_alg».proof.Proof.Gen.KernelIdeal.Frame
import proofs.«123337_j79388175499516_1_alg».proof.Proof.Gen.ReferenceIdeal
import proofs.«123337_j79388175499516_1_alg».proof.Proof.Gen.Pre_finite_inputs
import proofs.«123337_j79388175499516_1_alg».proof.Proof.Gen.KernelIdeal.Value
import proofs.«123337_j79388175499516_1_alg».proof.Proof.Gen.ReferenceIdeal.Run
import proofs.«123337_j79388175499516_1_alg».proof.Proof.Gen.ReferenceIdeal.Read
import proofs.«123337_j79388175499516_1_alg».proof.Proof.HostChain
import proofs.«123337_j79388175499516_1_alg».proof.Proof.KernelBlocks
import proofs.«123337_j79388175499516_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, and leaves its arguments unchanged. -/
theorem frame_kernel [Cert.Kernel.Facts] [Cert.Pre_finite_inputs.Facts] : Cert.frame_Kernel :=
  fun m ρ _ => Cert.Kernel.Gen.frame m ρ

/-- So does the idealized kernel, -/
theorem frame_kernelIdeal [Cert.KernelIdeal.Facts] [Cert.Pre_finite_inputs.Facts] : Cert.frame_KernelIdeal :=
  fun m ρ _ => Cert.KernelIdeal.Gen.frame m ρ

/-- and the idealized reference: its run, with the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From inputs that agree, both runs end with the result array at the dense layer of the reference's aggregate stage
    of the features and the two edge lists, the weights and the bias. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Dense.layer
      (Cert.ReferenceIdeal.Read.val_main_v39 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Blocks.run m ρ)
    show Cert.Dense.layer (Cert.KernelIdeal.Gen.V m c Cert.KernelIdeal.main_v39)
      (Cert.KernelIdeal.Gen.V m c Cert.KernelIdeal.main_arg1) (Cert.KernelIdeal.Gen.V m c Cert.KernelIdeal.main_arg2) = _
    rw [Cert.KernelIdeal.HostChain.V_agg, Cert.KernelIdeal.Gen.V_main_arg1, Cert.KernelIdeal.Gen.V_main_arg2]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v44_eq, Cert.ReferenceIdeal.RefValue.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
